-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3 : Shape := ⟨2, ![1024, 3]⟩
abbrev S200000x512 : Shape := ⟨2, ![200000, 512]⟩
abbrev S1000x512 : Shape := ⟨2, ![1000, 512]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : IVec S1024x3 32) (main_arg1 : FVec F S200000x512 .f32) (main_arg2 : FVec F S1000x512 .f32) : IVec S_ 1 :=
  let main_v0 : FVec F S200000x512 .f32 := Host.absf main_arg1
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S1024x3 : Shape := ⟨2, ![1024, 3]⟩
abbrev S200000x512 : Shape := ⟨2, ![200000, 512]⟩
abbrev S1000x512 : Shape := ⟨2, ![1000, 512]⟩
abbrev S1024x1 : Shape := ⟨2, ![1024, 1]⟩
abbrev S1024 : Shape := ⟨1, ![1024]⟩
abbrev S_ : Shape := ⟨0, ![]⟩
abbrev S1024x512 : Shape := ⟨2, ![1024, 512]⟩
abbrev S1024x256 : Shape := ⟨2, ![1024, 256]⟩
abbrev S1024x200000 : Shape := ⟨2, ![1024, 200000]⟩
abbrev S2048x512 : Shape := ⟨2, ![2048, 512]⟩
abbrev S1024x2048 : Shape := ⟨2, ![1024, 2048]⟩

abbrev nBuf : Space → Nat
  | .hbm => 38
  | .vmem => 5
  | .smem => 0
  | _ => 0

abbrev bufTy : (tb : Table) → Fin (tcTables nBuf tb) → BufTy
  | .hbm, ⟨0, _⟩ => ⟨S1024x3, .i32⟩
  | .hbm, ⟨1, _⟩ => ⟨S200000x512, .f32⟩
  | .hbm, ⟨2, _⟩ => ⟨S1000x512, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x512, .f32⟩
  | .hbm, ⟨14, _⟩ => ⟨S1024x1, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x512, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x512, .f32⟩
  | .hbm, ⟨36, _⟩ => ⟨S1024x512, .bf16⟩
  | .hbm, ⟨37, _⟩ => ⟨S1024x200000, .f32⟩
  | .local _ .vmem, ⟨0, _⟩ => ⟨S1024x512, .bf16⟩
  | .local _ .vmem, ⟨1, _⟩ => ⟨S2048x512, .f32⟩
  | .local _ .vmem, ⟨2, _⟩ => ⟨S2048x512, .f32⟩
  | .local _ .vmem, ⟨3, _⟩ => ⟨S1024x2048, .f32⟩
  | .local _ .vmem, ⟨4, _⟩ => ⟨S1024x2048, .f32⟩
  | _, _ => ⟨S1024x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x3_S1024x1_0_1 : S1024x3.Slices ![0, 1] S1024x1
  slices_S1024x512_S1024x256_0_0 : S1024x512.Slices ![0, 0] S1024x256
  slices_S1024x512_S1024x256_0_256 : S1024x512.Slices ![0, 256] S1024x256
  concatenates_S1024x256_S1024x256_S1024x512_d1 : Shape.Concatenates [S1024x256, S1024x256] S1024x512 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  gather_S200000x512_S1024x1_S1024x512_1_0_n_n_0_1_1512_wf : GatherDims.WF S200000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S200000x512.size a
  hwx0_1 : ∀ i : grid0.Coords, EltTy.bits .f32 = 32 ∨ (Rect.unit (s := S200000x512) (fun a => cc0_transform_1 i a * S2048x512.size a) (fun a => (Pipeline.Clip.of (cc0_transform_1 i a) (S2048x512.size a) (S200000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S200000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x200000.size a
  hwx0_2 : ∀ i : grid0.Coords, EltTy.bits .f32 = 32 ∨ (Rect.unit (s := S1024x200000) (fun a => cc0_transform_2 i a * S1024x2048.size a) (fun a => (Pipeline.Clip.of (cc0_transform_2 i a) (S1024x2048.size a) (S1024x200000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x200000.size a)).extent (S1024x2048.size a)) fun a => (Nat.zero_add _).trans_le (Pipeline.Clip.extent_le (Pipeline.Clip.ok_of (hstart0_2 i a)))).WholeWords (EltTy.packing .f32)

variable [Facts₀]

def gather_S200000x512_S1024x1_S1024x512_1_0_n_n_0_1_1512 : GatherDims S200000x512 S1024x1 S1024x512 where
  offsetDims := [1]
  collapsedSliceDims := [0]
  operandBatchingDims := []
  startIndicesBatchingDims := []
  startIndexMap := [0]
  indexVectorDim := 1
  sliceSizes := ![1, 512]
  wf := gather_S200000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v29) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v30) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x3 : Shape := ⟨2, ![1024, 3]⟩
abbrev S200000x512 : Shape := ⟨2, ![200000, 512]⟩
abbrev S1000x512 : Shape := ⟨2, ![1000, 512]⟩
abbrev S1024x1 : Shape := ⟨2, ![1024, 1]⟩
abbrev S1024 : Shape := ⟨1, ![1024]⟩
abbrev S_ : Shape := ⟨0, ![]⟩
abbrev S1024x512 : Shape := ⟨2, ![1024, 512]⟩
abbrev S1024x256 : Shape := ⟨2, ![1024, 256]⟩
abbrev S200000x256 : Shape := ⟨2, ![200000, 256]⟩
abbrev S256x200000 : Shape := ⟨2, ![256, 200000]⟩
abbrev S1024x200000 : Shape := ⟨2, ![1024, 200000]⟩

abbrev nBuf : Space → Nat
  | .hbm => 42
  | .vmem => 0
  | .smem => 0
  | _ => 0

abbrev bufTy : (tb : Table) → Fin (tcTables nBuf tb) → BufTy
  | .hbm, ⟨0, _⟩ => ⟨S1024x3, .i32⟩
  | .hbm, ⟨1, _⟩ => ⟨S200000x512, .f32⟩
  | .hbm, ⟨2, _⟩ => ⟨S1000x512, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x512, .f32⟩
  | .hbm, ⟨14, _⟩ => ⟨S1024x1, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x512, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S200000x256, .f32⟩
  | .hbm, ⟨30, _⟩ => ⟨S200000x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S256x200000, .f32⟩
  | .hbm, ⟨38, _⟩ => ⟨S1024x200000, .f32⟩
  | .hbm, ⟨39, _⟩ => ⟨S256x200000, .f32⟩
  | .hbm, ⟨40, _⟩ => ⟨S1024x200000, .f32⟩
  | .hbm, ⟨41, _⟩ => ⟨S1024x200000, .f32⟩
  | _, _ => ⟨S1024x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x3_S1024x1_0_1 : S1024x3.Slices ![0, 1] S1024x1
  slices_S1024x512_S1024x256_0_0 : S1024x512.Slices ![0, 0] S1024x256
  slices_S1024x512_S1024x256_0_256 : S1024x512.Slices ![0, 256] S1024x256
  slices_S200000x512_S200000x256_0_0 : S200000x512.Slices ![0, 0] S200000x256
  slices_S200000x512_S200000x256_0_256 : S200000x512.Slices ![0, 256] S200000x256
  transposes_S200000x256_S256x200000_1_0 : S200000x256.Transposes [1, 0] S256x200000
  gather_S200000x512_S1024x1_S1024x512_1_0_n_n_0_1_1512_wf : GatherDims.WF S200000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x256_S256x200000_S1024x200000_1_0_0_1_n_n_wf : DotDims.WF S1024x256 S256x200000 S1024x200000 [1] [0] [0] [1] [] []

variable [Facts₀]

def gather_S200000x512_S1024x1_S1024x512_1_0_n_n_0_1_1512 : GatherDims S200000x512 S1024x1 S1024x512 where
  offsetDims := [1]
  collapsedSliceDims := [0]
  operandBatchingDims := []
  startIndicesBatchingDims := []
  startIndexMap := [0]
  indexVectorDim := 1
  sliceSizes := ![1, 512]
  wf := gather_S200000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x256_S256x200000_S1024x200000_1_0_0_1_n_n : DotDims S1024x256 S256x200000 S1024x200000 where
  lhsContracting := [1]
  rhsContracting := [0]
  lhsNonContracting := [0]
  rhsNonContracting := [1]
  lhsBatch := []
  rhsBatch := []
  wf := dot_S1024x256_S256x200000_S1024x200000_1_0_0_1_n_n_wf

class Facts : Prop extends Facts₀ where

variable [Facts]
-- ==== Proof.KernelStep.lean ====
/-
  One grid point of the score kernel, as a step on its three staging buffers: the body loads the whole query
  block (1024 rows of 512 lanes) and the whole entity tile (2048 rows of 512 lanes), contracts the two over the
  512 lanes into a zero accumulator, and stores the 1024 x 2048 product over the whole result buffer. Whatever the
  result buffer held before is overwritten; the two inputs are left as found.
-/
import proofs.«170192_j8924942041805_2_alg».proof.Proof.Gen.Kernel.Frame
import proofs.«170192_j8924942041805_2_alg».proof.Proof.Gen.Kernel.Skeleton
import Idealize.ShloMosaic.Lib.Pipeline.Frame
import Idealize.ShloMosaic.Lib.Pipeline.Value

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The body on whole staging buffers holding `q` (queries) and `e` (entity tile), the result buffer at anything:
    it ends with the result buffer at the product of `q` with `e` over the lanes, the inputs unchanged. -/
theorem sound_kernel (c : Dev nD) (E : Set ℕ) (i : grid0.Coords)
    (arg1 : Memref sig .tc .vmem S1024x512 .bf16) (harg1 : arg1.IsWhole)
    (arg2 : Memref sig .tc .vmem S2048x512 .f32) (harg2 : arg2.IsWhole)
    (arg3 : Memref sig .tc .vmem S1024x2048 .f32) (harg3 : arg3.IsWhole)
    (q : Vec F S1024x512 .bf16) (e : Vec F S2048x512 .f32) (K : PUnit → sProp 𝕄) :
    iprop(owns (c : Thread nD τ) arg1 fullShare q ∗ owns (c : Thread nD τ) arg2 fullShare e ∗ (∃ d, owns (c : Thread nD τ) arg3 fullShare d)
        ∗ (iprop(owns (c : Thread nD τ) arg1 fullShare q ∗ owns (c : Thread nD τ) arg2 fullShare e
            ∗ owns (c : Thread nD τ) arg3 fullShare (k0_pay1 e q)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the result buffer, so the buffer reads the payload; each whole load reads its buffer
  have hz : (![0, 0] : Fin 2 → Nat) = fun _ => 0 := funext fun a => by fin_cases a <;> rfl
  rw [View.read_writes_eq_canon _ _ _ (View.cover_of_tiled _ S1024x2048.size (by rfl)), View.canon_unit_zero hz]
  simp only [View.readAt_eq_ld, View.ld_unit_zero (S := S2048x512) hz, View.ld_unit_zero (S := S1024x512) hz]

end Cert.Kernel.Step

end
-- ==== Proof.KernelFrame.lean ====
/-
  The score kernel as printed, point by point, for the frame alone: it runs to the end, faults nowhere and leaves
  its argument arrays unchanged. At the last grid point the entity tile's rows past the array's end hold words nothing
  names, and the matrix unit's product is not stated column by column, so nothing is said here of what the body
  leaves in the result buffer; the two input buffers are left as found. The entity array is only read: it ends as
  it began; the triples and the relation table bypass the region.
-/
import proofs.«170192_j8924942041805_2_alg».proof.Proof.Gen.Kernel.Frame
import proofs.«170192_j8924942041805_2_alg».proof.Proof.Gen.Kernel.Skeleton
import proofs.«170192_j8924942041805_2_alg».proof.Proof.KernelStep
import proofs.«170192_j8924942041805_2_alg».proof.Proof.Gen.Kernel.Points
import Idealize.ShloMosaic.Lib.Pipeline.Frame
import Idealize.ShloMosaic.Lib.Pipeline.Value

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

open Cert.Kernel.Step

variable (m : (ℓ : Loc nD τ sig) → Buf (Elt F) ℓ) (ρ : Dev nD → PrngReg)

/-- The proof data, relationally: the arrays as the region finds them; the body leaves the query and tile buffers
    as it found them, and anything in the result buffer. -/
def rdats (c : Dev nD) : RDat τ (Elt F) Unit ℕ (UR sig nD τ) ℕ cfg0 c where
  A w := V m c (Pipeline.arrRef spec0 w)
  after w _ Y X := w = 2 ∨ X = Y
  Φ _ := Pipeline.ΦA spec0 c
  q _ := fullShare
  owed _ := 0

/-- What the body is called with at point `t`: the three current buffers at any contents, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X))

/-- The body at any point, whatever the buffers hold. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact Or.inr rfl
    iexact H0
  isplitl [H1]
  · iexists (Y 1); isplitr; · ipureintro; exact Or.inr rfl
    iexact H1
  · iexists (k0_pay1 (Y 1) (Y 0)); isplitr; · ipureintro; exact Or.inl rfl
    iexact H2

/-- The library's relational body obligation, at every point. -/
theorem body_obligation (c : Dev nD) : (rdats m c).BodyObligation (defs₀ (F := F)) Variants.none () Set.univ := fun t Y _ => by
  rw [bigSep_W0, bigSep_W0]
  exact sound_body m c t Y

set_option backward.isDefEq.respectTransparency.types false in
/-- Every weakly fair execution terminates without a fault; every array the region does not write ends as the
    region found it, and the entity array, an input, likewise. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The program runs and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((congrFun ((rdats m c).ArrAt_in 1 rfl _) _).mp ((h c).1 1)).trans (V_main_arg1 m c),
      ((h c).2 main_arg2 (Pipeline.mem_restRefs_of main_arg2 (by decide) (by decide))).trans (V_main_arg2 m c)⟩) (run_main m ρ)

end Cert.Kernel.Blocks

end
-- ==== Proof.IdealStep.lean ====
/-
  One grid point of the score kernel, as a step on its three staging buffers: the body loads the whole query
  block (1024 rows of 512 lanes) and the whole entity tile (2048 rows of 512 lanes), contracts the two over the
  512 lanes into a zero accumulator, and stores the 1024 x 2048 product over the whole result buffer. Whatever the
  result buffer held before is overwritten; the two inputs are left as found.
-/
import proofs.«170192_j8924942041805_2_alg».proof.Proof.Gen.KernelIdeal.Frame
import proofs.«170192_j8924942041805_2_alg».proof.Proof.Gen.KernelIdeal.Skeleton
import Idealize.ShloMosaic.Lib.Pipeline.Frame
import Idealize.ShloMosaic.Lib.Pipeline.Value

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The body on whole staging buffers holding `q` (queries) and `e` (entity tile), the result buffer at anything:
    it ends with the result buffer at the product of `q` with `e` over the lanes, the inputs unchanged. -/
theorem sound_kernel (c : Dev nD) (E : Set ℕ) (i : grid0.Coords)
    (arg1 : Memref sig .tc .vmem S1024x512 .bf16) (harg1 : arg1.IsWhole)
    (arg2 : Memref sig .tc .vmem S2048x512 .f32) (harg2 : arg2.IsWhole)
    (arg3 : Memref sig .tc .vmem S1024x2048 .f32) (harg3 : arg3.IsWhole)
    (q : Vec F S1024x512 .bf16) (e : Vec F S2048x512 .f32) (K : PUnit → sProp 𝕄) :
    iprop(owns (c : Thread nD τ) arg1 fullShare q ∗ owns (c : Thread nD τ) arg2 fullShare e ∗ (∃ d, owns (c : Thread nD τ) arg3 fullShare d)
        ∗ (iprop(owns (c : Thread nD τ) arg1 fullShare q ∗ owns (c : Thread nD τ) arg2 fullShare e
            ∗ owns (c : Thread nD τ) arg3 fullShare (k0_pay1 e q)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the result buffer, so the buffer reads the payload; each whole load reads its buffer
  have hz : (![0, 0] : Fin 2 → Nat) = fun _ => 0 := funext fun a => by fin_cases a <;> rfl
  rw [View.read_writes_eq_canon _ _ _ (View.cover_of_tiled _ S1024x2048.size (by rfl)), View.canon_unit_zero hz]
  simp only [View.readAt_eq_ld, View.ld_unit_zero (S := S2048x512) hz, View.ld_unit_zero (S := S1024x512) hz]

end Cert.KernelIdeal.Step

end
-- ==== Proof.IdealPayload.lean ====
/-
  The kernel body's arithmetic at the exact extended-real reading, one result element at a time: the element in
  row r and column j of the 1024 x 2048 product is the sum over the 512 lanes k of the query block's (r, k) times
  the entity tile's (j, k). The change of float format on the tile and the same-shape cast on the queries are the
  identity, the accumulator is zero, and the product's contraction runs over the last axis of both operands.
-/
import proofs.«170192_j8924942041805_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The left operand's row is the result's row, -/
theorem lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- its lane the contraction position; -/
theorem lhs_lane (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand's row is the result's column, -/
theorem rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- its lane the contraction position. -/
theorem rhs_lane (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The stored product at row `i 0`, column `i 1`: the sum over the lanes of query times tile entry. -/
theorem pay_apply (e : Vec Ideal S2048x512 .f32) (q : Vec Ideal S1024x512 .bf16) (i : S1024x2048.Idx) :
    k0_pay1 (F := Ideal) e q i = ∑ k : Fin 512, q (ix2 (i 0) k) * e (ix2 (i 1) k) := by
  unfold k0_pay1
  rw [shapeCast_self]
  simp only [matmul]
  rw [Ideal.matmul_constant_zero_apply,
    ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx i
      ((contrEquiv1 dot_S1024x512_S2048x512_S1024x2048_1_1_0_0_n_n 512 rfl rfl).symm k) = ix2 (i 0) k :=
    funext fun a => Fin.ext (by
      match a with
      | ⟨0, _⟩ => exact lhs_row _ _
      | ⟨1, _⟩ => exact (lhs_lane _ _).trans hk)
  have er : dot_S1024x512_S2048x512_S1024x2048_1_1_0_0_n_n.rhsIdx i
      ((contrEquiv1 dot_S1024x512_S2048x512_S1024x2048_1_1_0_0_n_n 512 rfl rfl).symm k) = ix2 (i 1) k :=
    funext fun a => Fin.ext (by
      match a with
      | ⟨0, _⟩ => exact rhs_row _ _
      | ⟨1, _⟩ => exact (rhs_lane _ _).trans hk)
  rw [el, er]
  rfl

end Cert.KernelIdeal.Payload

end
-- ==== Proof.IdealBlocks.lean ====
/-
  The idealized score kernel point by point. At grid point t the pipeline hands the body the query block (the same
  1024 x 512 block at every point), entity rows 2048 t .. 2048 t + 2047 as a 2048 x 512 tile, and a result buffer;
  the body leaves the 1024 x 2048 product in the result buffer, which is written back to columns 2048 t .. of the
  score array. 200000 = 97 * 2048 + 1344, so at the last point only the first 1344 tile rows lie inside the entity
  array and only the first 1344 result columns are written back: the tile's remaining rows hold words nothing names.
  Each result column depends on its own tile row only, so the columns written back do not depend on those words.
-/
import proofs.«170192_j8924942041805_2_alg».proof.Proof.IdealStep
import proofs.«170192_j8924942041805_2_alg».proof.Proof.IdealPayload
import proofs.«170192_j8924942041805_2_alg».proof.Proof.Gen.KernelIdeal.Points

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

open Cert.KernelIdeal.Step Cert.KernelIdeal.Payload

variable (m : (ℓ : Loc nD τ sig) → Buf (Elt Ideal) ℓ) (ρ : Dev nD → PrngReg)

/-! ## What the buffers hold -/

/-- A word for the tile rows past the entity array's end (never read into a column that is written back). -/
def pad : S2048x512.Idx → Elt Ideal .f32 := fun _ => Scalar.ofBits (F := Ideal) .f32 0#32

/-- The entity tile of point `t`: the rows inside the array, filled out with `pad`. -/
def tile (c : Dev nD) (t : Fin cfg0.N) : S2048x512.Idx → Elt Ideal .f32 :=
  win0_1.fill (grid0.coords t) pad (iblk m c 1 t)

/-- The product of the query block with the entity tile of point `t`. -/
def prod (c : Dev nD) (t : Fin cfg0.N) : S1024x2048.Idx → Elt Ideal .f32 :=
  k0_pay1 (F := Ideal) (tile m c t) (iblk m c 0 t)

/-- The proof data: arrays as the region finds them; after the body the query buffer at its block, the tile buffer at
    `tile`, the result buffer at `prod`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => tile m c t
    | ⟨2, _⟩ => prod m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = tile m c t := by dsimp only [dats]
theorem after0_2 (c : Dev nD) (t : Fin cfg0.N) : (dats m 0 c).after 2 t = prod m c t := by dsimp only [dats]

/-- The query buffer holds the query block at every point. -/
theorem before0_0 (c : Dev nD) (t : Fin cfg0.N) (d) : (dats m 0 c).before 0 t d = iblk m c 0 t :=
  before0_0_of m (dats m 0 c) (A_eq m c 0) (after0_0 m c) t d

/-- The tile buffer is fetched at every point: the rows inside the array over whatever it held. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq m c 1]

/-- The result buffer comes back from the previous write-back at contents nothing names. -/
theorem before0_2 (c : Dev nD) (t : Fin cfg0.N) (d) : (dats m 0 c).before 2 t d = d :=
  (dats m 0 c).before_out_reset 2 rfl t
    ((Nat.eq_zero_or_pos t.val).imp id fun h => ⟨Nat.pos_iff_ne_zero.mp h, flush0_2 _⟩) d

/-! ## A written-back column does not see the words past the array's end -/

/-- The result columns written back at point `t` are the tile rows inside the array (the two windows are cut at the
    same place: entity row 200000). -/
theorem cut_same (t : Fin cfg0.N) : win0_2.xsize (grid0.coords t) 1 = win0_1.xsize (grid0.coords t) 0 := rfl

/-- The tile's 512 lanes are all inside the array. -/
theorem lanes_whole (t : Fin cfg0.N) : win0_1.xsize (grid0.coords t) 1 = 512 := rfl

/-- Two tiles that agree on the rows inside the array give products that agree on the columns written back. -/
theorem cut_product (t : Fin cfg0.N) (d d' : S2048x512.Idx → Elt Ideal .f32)
    (B : (win0_1.xblock (grid0.coords t)).Idx → Elt Ideal .f32) (A : Vec Ideal S1024x512 .bf16) :
    win0_2.cut (grid0.coords t) (k0_pay1 (F := Ideal) (win0_1.fill (grid0.coords t) d B) A)
      = win0_2.cut (grid0.coords t) (k0_pay1 (F := Ideal) (win0_1.fill (grid0.coords t) d' B) A) := by
  funext j
  show k0_pay1 (F := Ideal) _ A (win0_2.xinj (grid0.coords t) j) = k0_pay1 (F := Ideal) _ A (win0_2.xinj (grid0.coords t) j)
  rw [pay_apply, pay_apply]
  refine Finset.sum_congr rfl fun k _ => ?_
  have hm : win0_1.moved (grid0.coords t) (ix2 (win0_2.xinj (grid0.coords t) j 1) k) = true :=
    (win0_1.moved_iff _ _).mpr fun a => by
      match a with
      | ⟨0, _⟩ => exact lt_of_lt_of_eq (j 1).isLt (cut_same t)
      | ⟨1, _⟩ => exact lt_of_lt_of_eq k.isLt (lanes_whole t).symm
  unfold Window.fill; rw [dif_pos hm, dif_pos hm]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the query buffer at its block; the tile and result buffers stated on the part their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point. The tile buffer arrives holding the rows inside the array over some words `d₁`; the
    product the body stores is computed from that, and agrees with `prod` on the columns written back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win0_1.cut (grid0.coords t) (tile m c t) = iblk m c 1 t from win0_1.cut_fill _ _ _]
    iexact H1
  · iexists (k0_pay1 (F := Ideal) (win0_1.fill (grid0.coords t) d1 (iblk m c 1 t)) (iblk m c 0 t))
    rw [show prod m c t = k0_pay1 (F := Ideal) (win0_1.fill (grid0.coords t) pad (iblk m c 1 t)) (iblk m c 0 t) from rfl,
      win0_2.fill_congr_cut (grid0.coords t) (cut_product t d1 pad (iblk m c 1 t) (iblk m c 0 t))]
    iexact H2

/-- The library's body obligation, at every point (the tile and result windows stated on the moved part). -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized program terminates without a fault; the score array ends at what
    the write-backs of the products leave, every other array as it was. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized program runs and leaves its three argument arrays unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Blocks

end
-- ==== Proof.ScoreSpec.lean ====
/-
  The scores as one function of a query matrix and the entity table, in two arrangements.
  The entity table E has 200000 rows of 512 lanes, the first 256 lanes the real parts and the last 256 the
  imaginary parts. For a query matrix Q of 1024 rows the score of row r against entity e is the contraction of
  Q's row r with E's row e over all 512 lanes. When Q's rows are a real half followed by an imaginary half, that
  one sum over 512 lanes is the sum over the 256 real lanes plus the sum over the 256 imaginary lanes: a finite
  sum cut in two, which holds in any commutative additive monoid, the extended reals included (no term is moved
  across a product and nothing is cancelled, so infinite entries change nothing).
-/
import Idealize.ShloMosaic.Lib.ValueIdx
import Idealize.ShloMosaic.PureOps.Ideal

noncomputable section

namespace Cert.ScoreSpec

open Idealize.ShloMosaic Idealize.ShloMosaic.ValueIdx

/-- An a x b matrix of extended reals. -/
abbrev Mat (a b : Nat) : Type := (⟨2, ![a, b]⟩ : Shape).Idx → EReal

/-- Lane k of the real half, as a lane of the whole row; -/
abbrev lo (k : Fin 256) : Fin 512 := ⟨k.val, by omega⟩
/-- lane k of the imaginary half. -/
abbrev hi (k : Fin 256) : Fin 512 := ⟨256 + k.val, by omega⟩

/-- A sum over the 512 lanes is the sum over the first 256 plus the sum over the last 256. -/
theorem sum_halves {M : Type*} [AddCommMonoid M] (f : Fin 512 → M) :
    ∑ k, f k = ∑ k : Fin 256, f (lo k) + ∑ k : Fin 256, f (hi k) :=
  Fin.sum_univ_add (a := 256) (b := 256) (f : Fin (256 + 256) → M)

/-- One contraction over all 512 lanes. -/
def fullScore (Q : Mat 1024 512) (E : Mat 200000 512) : Mat 1024 200000 :=
  fun i => ∑ k : Fin 512, Q (ix2 (i 0) k) * E (ix2 (i 1) k)

/-- The real halves' contraction plus the imaginary halves'. -/
def halfScore (re im : Mat 1024 256) (E : Mat 200000 512) : Mat 1024 200000 :=
  fun i => (∑ k : Fin 256, re (ix2 (i 0) k) * E (ix2 (i 1) (lo k))) + ∑ k : Fin 256, im (ix2 (i 0) k) * E (ix2 (i 1) (hi k))

/-- They agree when the query rows are the real half followed by the imaginary half. -/
theorem fullScore_eq_halfScore (Q : Mat 1024 512) (re im : Mat 1024 256) (E : Mat 200000 512)
    (hlo : ∀ (r : Fin 1024) (k : Fin 256), Q (ix2 r (lo k)) = re (ix2 r k))
    (hhi : ∀ (r : Fin 1024) (k : Fin 256), Q (ix2 r (hi k)) = im (ix2 r k)) :
    fullScore Q E = halfScore re im E := by
  funext i
  unfold fullScore halfScore
  rw [sum_halves]
  congr 1
  · exact Finset.sum_congr rfl fun k _ => congrArg (· * E (ix2 (i 1) (lo k))) (hlo (i 0) k)
  · exact Finset.sum_congr rfl fun k _ => congrArg (· * E (ix2 (i 1) (hi k))) (hhi (i 0) k)

end Cert.ScoreSpec

end
-- ==== Proof.IdealScore.lean ====
/-
  The idealized kernel's score array as one function of what the region finds. Point t of the grid writes back
  columns 2048 t .. 2048 t + (the columns inside the array) - 1 of all 1024 rows; the entry in row r, column e of
  what it writes is the contraction over the 512 lanes of query row r with entity row e, because the tile row that
  column reads is entity row e and lies inside the array. Every column e below 200000 is in the block of point
  e / 2048, so after the run the whole score array is the contraction of the query matrix with the entity table.
-/
import proofs.«170192_j8924942041805_2_alg».proof.Proof.IdealBlocks
import proofs.«170192_j8924942041805_2_alg».proof.Proof.ScoreSpec
import Idealize.ShloMosaic.Lib.Pipeline.Value

set_option maxRecDepth 16384

noncomputable section

namespace Cert.KernelIdeal.Score

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

open Cert.KernelIdeal.Blocks Cert.KernelIdeal.Payload Cert.ScoreSpec

variable (m : (ℓ : Loc nD τ sig) → Buf (Elt Ideal) ℓ) (ρ : Dev nD → PrngReg)

/-- The scores of the query matrix the region finds (the host operations' result) against the entity table. -/
def G (c : Dev nD) : S1024x200000.Idx → Elt Ideal .f32 :=
  fullScore (V m c main_v29 : S1024x512.Idx → EReal) (V m c main_arg1 : S200000x512.Idx → EReal)

/-- The printed index maps over the grid: the query block never moves, tile t is entity rows from 2048 t, result
    block t is columns from 2048 t, cut at 200000. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 1024
    ∧ win0_2.xsize (grid0.coords t) (1 : Fin 2) = min 2048 (200000 - t.val * 2048) :=
  (by decide +kernel : ∀ t : Fin grid0.N, _)

/-- What point `t` writes back is block `t` of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  obtain ⟨e00, e01, e10, e11, e20, e21, -, -⟩ := idx_facts t
  funext j
  show prod m c t (win0_2.xinj (grid0.coords t) j) = G m c (((cfg0.win 2).blk t).view.emb j)
  unfold prod G fullScore
  rw [pay_apply]
  refine Finset.sum_congr rfl fun k _ => ?_
  have hq : iblk m c 0 t (ix2 (win0_2.xinj (grid0.coords t) j 0) k)
      = V m c main_v29 (ix2 (((cfg0.win 2).blk t).view.emb j 0) k) := by
    show V m c main_v29 (((cfg0.win 0).blk t).view.emb (ix2 (win0_2.xinj (grid0.coords t) j 0) k)) = _
    congr 1
    funext a; apply Fin.ext
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 512 + 1 * k.val = k.val
      omega
  -- the tile row this column reads is inside the entity array
  have hm : win0_1.moved (grid0.coords t) (ix2 (win0_2.xinj (grid0.coords t) j 1) k) = true :=
    (win0_1.moved_iff _ _).mpr fun a => by
      match a with
      | ⟨0, _⟩ => exact lt_of_lt_of_eq (j 1).isLt (cut_same t)
      | ⟨1, _⟩ => exact lt_of_lt_of_eq k.isLt (lanes_whole t).symm
  have he : tile m c t (ix2 (win0_2.xinj (grid0.coords t) j 1) k)
      = V m c main_arg1 (ix2 (((cfg0.win 2).blk t).view.emb j 1) k) := by
    unfold tile Window.fill
    rw [dif_pos hm]
    show V m c main_arg1 (((cfg0.win 1).blk t).view.emb _) = _
    congr 1
    funext a; apply Fin.ext
    match a with
    | ⟨0, _⟩ =>
      show win0_1.index t (0 : Fin 2) * 2048 + 1 * (j 1).val = win0_2.index t (1 : Fin 2) * 2048 + 1 * (j 1).val
      omega
    | ⟨1, _⟩ =>
      show win0_1.index t (1 : Fin 2) * 512 + 1 * k.val = k.val
      omega
  rw [hq, he]

/-- An index of the score array is in point `t`'s block iff each coordinate is in the block's range, cut at the
    array's end. -/
theorem mem_blk (t : Fin cfg0.N) (i : S1024x200000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v30).slice (win0_2.rect t)).set ↔ _
  rw [View.set_slice_whole, Rect.mem_set_unit]
  exact Iff.rfl

/-- Every entry of the score array is written back by the point whose block holds its column. -/
theorem cover (i : S1024x200000.Idx) :
    ∃ t : Fin cfg0.N, (cfg0.win 2).flush t = true ∧ i ∈ ((cfg0.win 2).blk t).view.set := by
  have hi0 : (i 0).val < 1024 := (i 0).isLt
  have hi1 : (i 1).val < 200000 := (i 1).isLt
  refine ⟨⟨(i 1).val / 2048, by rw [show cfg0.N = 98 from N_0]; omega⟩, flush0_2 _, ?_⟩
  rw [mem_blk]
  obtain ⟨-, -, -, -, e20, e21, s0, s1⟩ := idx_facts ⟨(i 1).val / 2048, by rw [show cfg0.N = 98 from N_0]; omega⟩
  intro a
  match a with
  | ⟨0, _⟩ =>
    show win0_2.index _ (0 : Fin 2) * 1024 ≤ (i 0).val ∧ (i 0).val < win0_2.index _ (0 : Fin 2) * 1024 + win0_2.xsize _ (0 : Fin 2)
    rw [e20, s0]; omega
  | ⟨1, _⟩ =>
    show win0_2.index _ (1 : Fin 2) * 2048 ≤ (i 1).val ∧ (i 1).val < win0_2.index _ (1 : Fin 2) * 2048 + win0_2.xsize _ (1 : Fin 2)
    rw [e21, s1]
    show (i 1).val / 2048 * 2048 ≤ (i 1).val ∧ (i 1).val < (i 1).val / 2048 * 2048 + min 2048 (200000 - (i 1).val / 2048 * 2048)
    omega

/-- The score array after the run. -/
theorem final (c : Dev nD) : (dats m 0 c).arrAt 2 cfg0.N = G m c :=
  (dats m 0 c).arrAt_eq_of_cover 2 (G m c) (fun t _ => flushed_eq m c t) cover

/-- The idealized kernel's run, read: the score array at `G`, the three arguments unchanged. -/
theorem run : θ_run defs (onTc (τ := τ) (main (F := Ideal))) ⟨m, fun _ => 0, ρ⟩ fun r => ∀ c : Dev nD,
      r.2.mem ((c.tc : Thread nD τ).loc main_v30) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Score

end
-- ==== Proof.RefScore.lean ====
/-
  The reference at the exact extended-real reading, as one function of its arguments: the score of query row r
  against entity e is the contraction of the real part of the composed query with the entity's real half (lanes
  0..255) plus the contraction of the imaginary part with the entity's imaginary half (lanes 256..511). The
  transposes and the two slices of the entity table only re-index: entry (k, e) of a transposed half is entry
  (e, k) or (e, 256 + k) of the table.
-/
import proofs.«170192_j8924942041805_2_alg».proof.Proof.Gen.ReferenceIdeal.Read
import proofs.«170192_j8924942041805_2_alg».proof.Proof.ScoreSpec
import Idealize.ShloMosaic.Lib.ValueIdx
import Idealize.ShloMosaic.PureOps.Ideal.Laws

noncomputable section

namespace Cert.ReferenceIdeal.RefValue

open Cert.ReferenceIdeal Cert.ReferenceIdeal.Read Cert.ScoreSpec Idealize.ShloMosaic Idealize.ShloMosaic.ValueIdx

/-- The reference's result is the two half contractions of its composed query parts with the entity table. -/
theorem ref_eq (x0 : (⟨S1024x3, .i32⟩ : BufTy).Contents (Elt Ideal)) (x1 : (⟨S200000x512, .f32⟩ : BufTy).Contents (Elt Ideal))
    (x2 : (⟨S1000x512, .f32⟩ : BufTy).Contents (Elt Ideal)) :
    val_main_v34 (F := Ideal) x0 x1 x2
      = halfScore (val_main_v26 (F := Ideal) x0 x1 x2) (val_main_v29 (F := Ideal) x0 x1 x2) x1 := by
  funext i
  rw [val_main_v34_apply, val_main_v31_apply, val_main_v33_apply]
  unfold halfScore
  refine congrArg₂ (· + ·) (Finset.sum_congr rfl fun k _ => ?_) (Finset.sum_congr rfl fun k _ => ?_)
  ·
    rw [val_main_v30_apply, val_main_v22_apply]
    have e1 : lidx_main_v31 i k = ix2 (i 0) k := funext fun a => Fin.ext (by
      match a with
      | ⟨0, _⟩ => rfl
      | ⟨1, _⟩ => rfl)
    have e2 : idx_main_v22 (idx_main_v30 (ridx_main_v31 i k)) = ix2 (i 1) (lo k) := funext fun a => Fin.ext (by
      match a with
      | ⟨0, _⟩ => rfl
      | ⟨1, _⟩ => rfl)
    rw [e1, e2]
    rfl
  ·
    rw [val_main_v32_apply, val_main_v23_apply]
    have e1 : lidx_main_v33 i k = ix2 (i 0) k := funext fun a => Fin.ext (by
      match a with
      | ⟨0, _⟩ => rfl
      | ⟨1, _⟩ => rfl)
    have e2 : idx_main_v23 (idx_main_v32 (ridx_main_v33 i k)) = ix2 (i 1) (hi k) := funext fun a => Fin.ext (by
      match a with
      | ⟨0, _⟩ => rfl
      | ⟨1, _⟩ => rfl)
    rw [e1, e2]
    rfl

end Cert.ReferenceIdeal.RefValue

end
-- ==== Proof.Bridge.lean ====
/-
  Joining the two sides. Before the region, the kernel's host operations compose the query exactly as the reference
  does — the same two row gathers with the same wrap of negative indices, the same four slices, the same complex
  product — then lay the real part beside the imaginary part along the lanes and change the float format, which is
  the identity on extended reals. So the query matrix the region finds has the reference's real part in lanes
  0..255 and its imaginary part in lanes 256..511, and the kernel's one contraction over 512 lanes is the
  reference's two contractions over 256 lanes, summed.
-/
import proofs.«170192_j8924942041805_2_alg».proof.Proof.IdealScore
import proofs.«170192_j8924942041805_2_alg».proof.Proof.RefScore
import Idealize.ShloMosaic.Lib.StableHlo.Run
import Idealize.ShloMosaic.Lib.Pipeline.Value

set_option maxRecDepth 16384

noncomputable section

namespace Cert.Proof.Bridge

open Cert.KernelIdeal Cert.KernelIdeal.Gen Cert.ScoreSpec
open Idealize.ShloMosaic Idealize.ShloMosaic.TcCoe Idealize.ShloMosaic.ValueIdx Idealize.SL.Sem Idealize.ShloMosaic.StableHlo

/-- A real half laid beside an imaginary half along the lanes, contracted over all 512 lanes, is the two half
    contractions summed. -/
theorem fullScore_beside (re im : Mat 1024 256) (E : Mat 200000 512) :
    fullScore (truncf (F := Ideal) .bf16 (concatenate S1024x512 1 [⟨S1024x256, re⟩, ⟨S1024x256, im⟩]
        Facts₀.concatenates_S1024x256_S1024x256_S1024x512_d1) Facts₀.bitsLt_bf16_f32) E
      = halfScore re im E :=
  fullScore_eq_halfScore _ re im E
    (fun r k => show concatenate S1024x512 (1 : Fin 2) [⟨S1024x256, re⟩, ⟨S1024x256, im⟩]
        Facts₀.concatenates_S1024x256_S1024x256_S1024x512_d1 (ix2 r (lo k)) = re (ix2 r k) from
      concatenate_pair_apply_left (1 : Fin 2) re im Facts₀.concatenates_S1024x256_S1024x256_S1024x512_d1
      (ix2 r (lo k)) rfl (ix2 r k) (fun b => by
        match b with
        | ⟨0, _⟩ => rfl
        | ⟨1, _⟩ => rfl))
    (fun r k => show concatenate S1024x512 (1 : Fin 2) [⟨S1024x256, re⟩, ⟨S1024x256, im⟩]
        Facts₀.concatenates_S1024x256_S1024x256_S1024x512_d1 (ix2 r (hi k)) = im (ix2 r k) from
      concatenate_pair_apply_right (1 : Fin 2) re im Facts₀.concatenates_S1024x256_S1024x256_S1024x512_d1
      (ix2 r (hi k)) rfl rfl (ix2 r k) (fun b hb => by
        match b with
        | ⟨0, _⟩ => rfl
        | ⟨1, _⟩ => exact absurd rfl hb)
      (Nat.add_comm _ _))

variable (m : (ℓ : Loc nD τ sig) → Buf (Elt Ideal) ℓ)

/-- The real part of the composed query, as the reference composes it, of the kernel's arguments; -/
abbrev reQ (c : Dev nD) : Mat 1024 256 :=
  Cert.ReferenceIdeal.Read.val_main_v26 (F := Ideal) (m ((c.tc : Thread nD τ).loc main_arg0))
    (m ((c.tc : Thread nD τ).loc main_arg1)) (m ((c.tc : Thread nD τ).loc main_arg2))
/-- its imaginary part. -/
abbrev imQ (c : Dev nD) : Mat 1024 256 :=
  Cert.ReferenceIdeal.Read.val_main_v29 (F := Ideal) (m ((c.tc : Thread nD τ).loc main_arg0))
    (m ((c.tc : Thread nD τ).loc main_arg1)) (m ((c.tc : Thread nD τ).loc main_arg2))

set_option maxHeartbeats 2000000 in
/-- The query matrix the region finds: the real part beside the imaginary part. -/
theorem query_eq (c : Dev nD) :
    (V m c main_v29 : S1024x512.Idx → EReal)
      = truncf (F := Ideal) .bf16 (concatenate S1024x512 1 [⟨S1024x256, reQ m c⟩, ⟨S1024x256, imQ m c⟩]
          Facts₀.concatenates_S1024x256_S1024x256_S1024x512_d1) Facts₀.bitsLt_bf16_f32 := by
  show StableHlo.after hostOps0 (fun b => m (c, b)) (Proc.devRef .tc main_v29) = _
  after_results_simp
  rfl

/-- The idealized kernel's score array is the reference's two half contractions, of the kernel's arguments. -/
theorem G_eq (c : Dev nD) :
    Cert.KernelIdeal.Score.G m c = halfScore (reQ m c) (imQ m c) (m ((c.tc : Thread nD τ).loc main_arg1)) := by
  unfold Cert.KernelIdeal.Score.G
  rw [query_eq m c, V_main_arg1 m c]
  exact fullScore_beside _ _ _

end Cert.Proof.Bridge

end
-- ==== Proof.lean ====
/-
  The score of every query against every entity, two ways.
  The kernel gathers a head row of the entity table and a relation row per query, forms their complex product
  (real part re_h re_r - im_h im_r, imaginary part re_h im_r + im_h re_r, 256 lanes each), lays the two parts side
  by side as one 512-lane query row, and contracts that row with every 512-lane entity row, 2048 entities per grid
  point. The reference forms the same two parts and contracts the real part with the entities' real halves and the
  imaginary part with their imaginary halves, adding the two results. Read over the extended reals, with every float
  operation exact and the change of float format the identity, both give, for query r and entity e,
      sum over k < 256 of re(r, k) E(e, k)  +  sum over k < 256 of im(r, k) E(e, 256 + k):
  the kernel's single sum over 512 lanes is cut after lane 255. Cutting a finite sum uses only that addition is
  commutative and associative, so the inputs' finiteness is never used.
  200000 entities are 97 blocks of 2048 and one of 1344: at the last grid point only 1344 tile rows and 1344 result
  columns are moved, and each result column is computed from its own tile row, so the unnamed words past the entity
  table's end never reach the score array. The claims: each of the three programs runs to the end without a fault
  and leaves its arguments unchanged; the idealization rewrote nothing; the two idealized programs end with equal
  score arrays.
-/
import proofs.«170192_j8924942041805_2_alg».proof.Defs
import proofs.«170192_j8924942041805_2_alg».proof.Proof.Gen.Kernel
import proofs.«170192_j8924942041805_2_alg».proof.Proof.Gen.KernelIdeal
import proofs.«170192_j8924942041805_2_alg».proof.Proof.Gen.ReferenceIdeal
import proofs.«170192_j8924942041805_2_alg».proof.Proof.Gen.Pre_finite_inputs
import proofs.«170192_j8924942041805_2_alg».proof.Proof.Gen.ReferenceIdeal.Run
import proofs.«170192_j8924942041805_2_alg».proof.Proof.Gen.ReferenceIdeal.Read
import proofs.«170192_j8924942041805_2_alg».proof.Proof.KernelFrame
import proofs.«170192_j8924942041805_2_alg».proof.Proof.Bridge

noncomputable section

namespace Cert.Proof

open Idealize.ShloMosaic Idealize.SL.Sem

/-- The kernel as printed runs and leaves its arguments unchanged. -/
theorem frame_kernel : Cert.frame_Kernel := fun m ρ _ => Cert.Kernel.Blocks.frame (F := Bits) m ρ

/-- So does its idealization. -/
theorem frame_kernelIdeal : Cert.frame_KernelIdeal := fun m ρ _ => Cert.KernelIdeal.Blocks.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same score array: the kernel's
    single 512-lane contraction is the reference's two 256-lane contractions, summed. -/
theorem algebraic : Cert.algebraic_KernelIdeal_ReferenceIdeal := by
  intro m ρ m' ρ' _ hagree
  refine ⟨fun c => Cert.KernelIdeal.Score.G m c, Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_eq,
    (hagree c).1, (hagree c).2.1, (hagree c).2.2]
  exact (Cert.Proof.Bridge.G_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
